-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128 : Shape := ⟨1, ![128]⟩
abbrev S131072 : Shape := ⟨1, ![131072]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128 : S_.BroadcastsInDim S128 (![] : Fin 0 → Fin S128.rank)
  reducesTo_S128_S_d0 : S128.ReducesTo [0] S_
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x128 .f32) (main_arg1 : FVec F S128 .f32) (main_arg2 : FVec F S131072 .f32) (main_arg3 : IVec S131072 32) (main_arg4 : IVec S131072 32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S131072 .f32 := Host.absf main_arg2
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  main_v13
-- ==== Kernel.lean ====
abbrev S131072x128 : Shape := ⟨2, ![131072, 128]⟩
abbrev S128 : Shape := ⟨1, ![128]⟩
abbrev S131072 : Shape := ⟨1, ![131072]⟩
abbrev S131072x1 : Shape := ⟨2, ![131072, 1]⟩
abbrev S1x128 : Shape := ⟨2, ![1, 128]⟩
abbrev S2x1x1 : Shape := ⟨3, ![2, 1, 1]⟩
abbrev S2048x128 : Shape := ⟨2, ![2048, 128]⟩
abbrev S2048x1 : Shape := ⟨2, ![2048, 1]⟩
abbrev S1x1x1 : Shape := ⟨3, ![1, 1, 1]⟩
abbrev S2048 : Shape := ⟨1, ![2048]⟩
abbrev S1 : Shape := ⟨1, ![1]⟩
abbrev S1x1 : Shape := ⟨2, ![1, 1]⟩
abbrev S_ : Shape := ⟨0, ![]⟩

abbrev nBuf : Space → Nat
  | .hbm => 17
  | .vmem => 12
  | .smem => 0
  | _ => 0

abbrev bufTy : (tb : Table) → Fin (tcTables nBuf tb) → BufTy
  | .hbm, ⟨0, _⟩ => ⟨S131072x128, .f32⟩
  | .hbm, ⟨1, _⟩ => ⟨S128, .f32⟩
  | .hbm, ⟨2, _⟩ => ⟨S131072, .f32⟩
  | .hbm, ⟨3, _⟩ => ⟨S131072, .i32⟩
  | .hbm, ⟨4, _⟩ => ⟨S131072, .i32⟩
  | .hbm, ⟨5, _⟩ => ⟨S131072x1, .i32⟩
  | .hbm, ⟨6, _⟩ => ⟨S131072x1, .i32⟩
  | .hbm, ⟨7, _⟩ => ⟨S131072x1, .f32⟩
  | .hbm, ⟨8, _⟩ => ⟨S1x128, .f32⟩
  | .hbm, ⟨9, _⟩ => ⟨S2x1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x1, .i32⟩
  | .local _ .vmem, ⟨3, _⟩ => ⟨S2048x1, .i32⟩
  | .local _ .vmem, ⟨4, _⟩ => ⟨S2048x1, .i32⟩
  | .local _ .vmem, ⟨5, _⟩ => ⟨S2048x1, .i32⟩
  | .local _ .vmem, ⟨6, _⟩ => ⟨S2048x1, .f32⟩
  | .local _ .vmem, ⟨7, _⟩ => ⟨S2048x1, .f32⟩
  | .local _ .vmem, ⟨8, _⟩ => ⟨S1x128, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v77 : BitVec 1 := Scalar.cmpi .eq arg1 c31_i32
  let v78 : BitVec 32 := Scalar.extui v77
  let c0_i32_28 : BitVec 32 := 0#32
  let v79 : BitVec 1 := Scalar.cmpi .ne v78 c0_i32_28
  v79

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S131072_S131072x1 : S131072.ShapeCasts S131072x1
  shapeCasts_S128_S1x128 : S128.ShapeCasts S1x128
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  natLt_1_32 : 1 < 32
  iota_S2048x128_d1_w32 : S2048x128.Iotas .tc 32 [1]
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  h_S_ : 0 < S_.numel
  reducesTo_S131072_S_d0 : S131072.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S131072x1.size a
  hwx0_2 : ∀ i : grid0.Coords, EltTy.bits .i32 = 32 ∨ (Rect.block (s := S131072x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S131072x1.size a
  hwx0_3 : ∀ i : grid0.Coords, EltTy.bits .f32 = 32 ∨ (Rect.block (s := S131072x1) S2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S131072x128 : Shape := ⟨2, ![131072, 128]⟩
abbrev S128 : Shape := ⟨1, ![128]⟩
abbrev S131072 : Shape := ⟨1, ![131072]⟩
abbrev S_ : Shape := ⟨0, ![]⟩
abbrev S131072x1 : Shape := ⟨2, ![131072, 1]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S128, .f32⟩
  | .hbm, ⟨2, _⟩ => ⟨S131072, .f32⟩
  | .hbm, ⟨3, _⟩ => ⟨S131072, .i32⟩
  | .hbm, ⟨4, _⟩ => ⟨S131072, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S_, .i32⟩
  | .hbm, ⟨15, _⟩ => ⟨S131072, .i32⟩
  | .hbm, ⟨16, _⟩ => ⟨S131072, .i1⟩
  | .hbm, ⟨17, _⟩ => ⟨S131072x1, .i1⟩
  | .hbm, ⟨18, _⟩ => ⟨S128, .i32⟩
  | .hbm, ⟨19, _⟩ => ⟨S1x128, .i32⟩
  | .hbm, ⟨20, _⟩ => ⟨S131072x128, .i32⟩
  | .hbm, ⟨21, _⟩ => ⟨S131072x128, .i32⟩
  | .hbm, ⟨22, _⟩ => ⟨S131072x128, .i1⟩
  | .hbm, ⟨23, _⟩ => ⟨S131072x128, .i32⟩
  | .hbm, ⟨24, _⟩ => ⟨S131072x128, .i32⟩
  | .hbm, ⟨25, _⟩ => ⟨S131072x128, .i1⟩
  | .hbm, ⟨26, _⟩ => ⟨S131072x128, .i1⟩
  | .hbm, ⟨27, _⟩ => ⟨S131072x128, .i1⟩
  | .hbm, ⟨28, _⟩ => ⟨S131072x128, .f32⟩
  | .hbm, ⟨29, _⟩ => ⟨S131072x128, .i32⟩
  | .hbm, ⟨30, _⟩ => ⟨S131072x128, .i32⟩
  | .hbm, ⟨31, _⟩ => ⟨S131072x128, .i1⟩
  | .hbm, ⟨32, _⟩ => ⟨S_, .i1⟩
  | .hbm, ⟨33, _⟩ => ⟨S131072x128, .i1⟩
  | .hbm, ⟨34, _⟩ => ⟨S131072x128, .i1⟩
  | .hbm, ⟨35, _⟩ => ⟨S131072x128, .i1⟩
  | .hbm, ⟨36, _⟩ => ⟨S131072x128, .f32⟩
  | .hbm, ⟨37, _⟩ => ⟨S131072x128, .f32⟩
  | .hbm, ⟨38, _⟩ => ⟨S131072x128, .f32⟩
  | .hbm, ⟨39, _⟩ => ⟨S_, .f32⟩
  | .hbm, ⟨40, _⟩ => ⟨S131072x128, .f32⟩
  | .hbm, ⟨41, _⟩ => ⟨S131072x128, .f32⟩
  | .hbm, ⟨42, _⟩ => ⟨S_, .f32⟩
  | .hbm, ⟨43, _⟩ => ⟨S131072x128, .f32⟩
  | .hbm, ⟨44, _⟩ => ⟨S131072x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S131072x128, .f32⟩
  | .hbm, ⟨49, _⟩ => ⟨S131072x128, .f32⟩
  | .hbm, ⟨50, _⟩ => ⟨S_, .f32⟩
  | .hbm, ⟨51, _⟩ => ⟨S131072x128, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S_, .f32⟩
  | .hbm, ⟨56, _⟩ => ⟨S131072x128, .f32⟩
  | .hbm, ⟨57, _⟩ => ⟨S131072x128, .f32⟩
  | .hbm, ⟨58, _⟩ => ⟨S131072x128, .f32⟩
  | .hbm, ⟨59, _⟩ => ⟨S131072x128, .f32⟩
  | .hbm, ⟨60, _⟩ => ⟨S131072x128, .f32⟩
  | .hbm, ⟨61, _⟩ => ⟨S131072x128, .f32⟩
  | .hbm, ⟨62, _⟩ => ⟨S131072x128, .f32⟩
  | .hbm, ⟨63, _⟩ => ⟨S131072x128, .f32⟩
  | .hbm, ⟨64, _⟩ => ⟨S1x128, .f32⟩
  | .hbm, ⟨65, _⟩ => ⟨S131072x128, .f32⟩
  | .hbm, ⟨66, _⟩ => ⟨S131072x128, .f32⟩
  | .hbm, ⟨67, _⟩ => ⟨S_, .f32⟩
  | .hbm, ⟨68, _⟩ => ⟨S131072, .f32⟩
  | .hbm, ⟨69, _⟩ => ⟨S_, .f32⟩
  | .hbm, ⟨70, _⟩ => ⟨S131072, .f32⟩
  | .hbm, ⟨71, _⟩ => ⟨S_, .f32⟩
  | .hbm, ⟨72, _⟩ => ⟨S131072, .f32⟩
  | .hbm, ⟨73, _⟩ => ⟨S131072, .f32⟩
  | .hbm, ⟨74, _⟩ => ⟨S131072, .f32⟩
  | .hbm, ⟨75, _⟩ => ⟨S131072, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_cst_5 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_cst_12 : Ref sig .tc := ⟨.hbm, 80, rfl⟩
abbrev main_v48 : Ref sig .tc := ⟨.hbm, 81, rfl⟩
abbrev main_v49 : Ref sig .tc := ⟨.hbm, 82, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  reducesTo_S131072x128_S131072_d1 : S131072x128.ReducesTo [1] S131072
  h_S_ : 0 < S_.numel
  reducesTo_S131072_S_d0 : S131072.ReducesTo [0] S_

variable [Facts₀]

class Facts : Prop extends Facts₀ where

variable [Facts]
-- ==== Proof.KernelSteps.lean ====
/-
  One grid point of the survival-loss kernel, as values.

  The kernel walks 64 row blocks of 2048 rows, two runs of 32. At every point it adds, into a one-word accumulator,
  the block's sum over its rows of  rowLoss(row) · sample_weight(row); the accumulator is set to zero at the first
  point of a run, and copied to the run's output word at the last one. This module reads the three control cases of
  the body back as ONE function `step` of the point's input blocks and of the accumulator found:
    first point of a run      : accumulator := step blocks 0
    inner point               : accumulator := step blocks accumulator
    last point of a run       : the same, and the output word := that new accumulator.
  Every store covers its whole one-word buffer, so what a buffer holds is its last store's payload; the loads read
  whole buffers, so each reads the buffer's contents.
-/
import proofs.«142355_j75634374083220_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- What one point's body leaves in the accumulator, from the point's blocks (predictions, durations, event flags,
    sample weights, bin weights) and the accumulator it found. -/
def step (x0 : Vec F S2048x128 .f32) (x1 : Vec F S2048x1 .i32) (x2 : Vec F S2048x1 .i32) (x3 : Vec F S2048x1 .f32)
    (x4 : Vec F S1x128 .f32) (acc : Vec F S1x1x1 .f32) : Vec F S1x1x1 .f32 :=
  k0_pay9 (k0_pay5 x1 x2) (k0_pay6 x1 x2) (k0_pay7 x0) (k0_pay8 (F := F)) x4 x3 acc

/-- The zero word the first point of a run stores. -/
abbrev zeroAcc : Vec F S1x1x1 .f32 := k0_pay1 (F := F)

/-- First point of a run: the accumulator is zeroed, read back, and left at `step` of the zero word. -/
theorem acc_first (c : Dev nD) (i : grid0.Coords) (arg2 : Memref sig .tc .vmem S2048x128 .f32) (harg2 : arg2.IsWhole) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S1x128 .f32) (harg6 : arg6.IsWhole) (arg7 : Memref sig .tc .vmem S1x1x1 .f32) (harg7 : arg7.IsWhole) (arg8 : Memref sig .tc .vmem S1x1x1 .f32) (harg8 : arg8.IsWhole) (hc0 : cond0_0 i) (hc1 : ¬cond0_1 i)
    (x0 : Vec F S2048x128 .f32) (x1 : Vec F S2048x1 .i32) (x2 : Vec F S2048x1 .i32) (x3 : Vec F S2048x1 .f32) (x4 : Vec F S1x128 .f32) :
    sout0_A_0 c i arg2 harg2 arg3 harg3 arg4 harg4 arg5 harg5 arg6 harg6 arg7 harg7 arg8 harg8 hc0 hc1 x0 x1 x2 x3 x4 = step x0 x1 x2 x3 x4 (zeroAcc (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread,
    View.ld_unit_zero (S := S2048x128) hz2, View.ld_unit_zero (S := S2048x1) hz2, View.ld_unit_zero (S := S1x128) hz2, View.ld_unit_zero (S := S1x1x1) hz3]
  rfl

/-- Inner point: the accumulator found is advanced by `step`. -/
theorem acc_inner (c : Dev nD) (i : grid0.Coords) (arg2 : Memref sig .tc .vmem S2048x128 .f32) (harg2 : arg2.IsWhole) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S1x128 .f32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : ¬cond0_1 i)
    (x0 : Vec F S2048x128 .f32) (x1 : Vec F S2048x1 .i32) (x2 : Vec F S2048x1 .i32) (x3 : Vec F S2048x1 .f32) (x4 : Vec F S1x128 .f32) (xs0 : Vec F S1x1x1 .f32) :
    sout0_B_0 c i arg2 harg2 arg3 harg3 arg4 harg4 arg5 harg5 arg6 harg6 arg7 harg7 arg8 harg8 hc0 hc1 x0 x1 x2 x3 x4 xs0 = step x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S2048x128) hz2, View.ld_unit_zero (S := S2048x1) hz2, View.ld_unit_zero (S := S1x128) hz2, View.ld_unit_zero (S := S1x1x1) hz3]
  rfl

/-- Last point of a run: the accumulator is advanced the same way … -/
theorem acc_last (c : Dev nD) (i : grid0.Coords) (arg2 : Memref sig .tc .vmem S2048x128 .f32) (harg2 : arg2.IsWhole) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S1x128 .f32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : cond0_1 i)
    (x0 : Vec F S2048x128 .f32) (x1 : Vec F S2048x1 .i32) (x2 : Vec F S2048x1 .i32) (x3 : Vec F S2048x1 .f32) (x4 : Vec F S1x128 .f32) (xs0 : Vec F S1x1x1 .f32) :
    sout0_C_0 c i arg2 harg2 arg3 harg3 arg4 harg4 arg5 harg5 arg6 harg6 arg7 harg7 arg8 harg8 hc0 hc1 x0 x1 x2 x3 x4 xs0 = step x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S2048x128) hz2, View.ld_unit_zero (S := S2048x1) hz2, View.ld_unit_zero (S := S1x128) hz2, View.ld_unit_zero (S := S1x1x1) hz3]
  rfl

/-- … and the run's output word receives that new accumulator. -/
theorem out_last (c : Dev nD) (i : grid0.Coords) (arg2 : Memref sig .tc .vmem S2048x128 .f32) (harg2 : arg2.IsWhole) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S1x128 .f32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : cond0_1 i)
    (x0 : Vec F S2048x128 .f32) (x1 : Vec F S2048x1 .i32) (x2 : Vec F S2048x1 .i32) (x3 : Vec F S2048x1 .f32) (x4 : Vec F S1x128 .f32) (xs0 : Vec F S1x1x1 .f32) :
    out0_C_5 c i arg2 harg2 arg3 harg3 arg4 harg4 arg5 harg5 arg6 harg6 arg7 harg7 arg8 harg8 hc0 hc1 x0 x1 x2 x3 x4 xs0 = step x0 x1 x2 x3 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3, View.readCov_unit_zero (S := S1x1x1) _ hz3]
  simp only [View.readAt_eq_ld, harg2.read_unread, harg3.read_unread, harg4.read_unread, harg5.read_unread, harg6.read_unread, harg7.read_unread, harg8.read_unread,
    View.ld_unit_zero (S := S2048x128) hz2, View.ld_unit_zero (S := S2048x1) hz2, View.ld_unit_zero (S := S1x128) hz2, View.ld_unit_zero (S := S1x1x1) hz3]
  rfl

end Cert.KernelIdeal.Acc

end
-- ==== Proof.KernelFold.lean ====
/-
  The accumulator over the grid, as a fold.

  The grid's 64 points run in order; points 0..31 are the first run and 32..63 the second. At the first point of
  a run the accumulator becomes `step blocks 0`; at every other point it becomes `step blocks (what the point
  before left)`; at the last point of a run the output word receives the accumulator just computed. So what the
  accumulator holds after point t is the fold of `step` over the points of t's run up to t, started from the zero
  word — stated with the library's fold over a run of consecutive points, by its induction on the position in the
  run, never by enumerating the points.
-/
import proofs.«142355_j75634374083220_2_alg».proof.Proof.KernelSteps

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- `step` on the blocks the windows hold at point t. -/
abbrev stepAt (c : Dev nD) (t : Fin cfg0.N) (acc : Vec F S1x1x1 .f32) : Vec F S1x1x1 .f32 :=
  step (iblk m c 0 t) (iblk m c 1 t) (iblk m c 2 t) (iblk m c 3 t) (iblk m c 4 t) acc

/-- At the first point of a run the accumulator is `step` of the zero word. -/
theorem acc_reset (c : Dev nD) (t : Fin cfg0.N) (h0 : t.val % 32 = 0) :
    (outsAt0 m c t.val t.isLt).2 = stepAt m c t (zeroAcc (F := F)) := by
  have h1 : ¬t.val % 32 = 31 := by omega
  rw [outsAt0_A m c t h0 h1]
  exact acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- At any other point it is `step` of what the point before left. -/
theorem acc_step (c : Dev nD) (t : Fin cfg0.N) (h0 : ¬t.val % 32 = 0) :
    (outsAt0 m c t.val t.isLt).2 = stepAt m c t (outsAt0 m c (t.val - 1) (Nat.lt_of_le_of_lt (Nat.sub_le _ _) t.isLt)).2 := by
  by_cases h1 : t.val % 32 = 31
  · rw [outsAt0_C m c t h0 h1]
    exact acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  · rw [outsAt0_B m c t h0 h1]
    exact acc_inner c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- At the last point of a run the output word holds the accumulator. -/
theorem out_eq_acc (c : Dev nD) (t : Fin cfg0.N) (h1 : t.val % 32 = 31) :
    (outsAt0 m c t.val t.isLt).1 = (outsAt0 m c t.val t.isLt).2 := by
  have h0 : ¬t.val % 32 = 0 := by omega
  rw [outsAt0_C m c t h0 h1]
  exact (out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).trans
    (acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).symm

/-- THE FOLD: after point t the accumulator is the fold of `step` from the zero word over t's run up to t. -/
theorem acc_fold (c : Dev nD) (t : ℕ) (ht : t < cfg0.N) (h' : 32 * (t / 32) + t % 32 < cfg0.N) :
    (outsAt0 m c t ht).2
      = Pipeline.accAt (fun n h => stepAt m c ⟨n, h⟩ (zeroAcc (F := F))) (fun n h acc => stepAt m c ⟨n, h⟩ acc)
          (32 * (t / 32)) (t % 32) h' :=
  Pipeline.eq_accAt_of_mod (fun n h => (outsAt0 m c n h).2) 32 _ _
    (fun n h h0 => acc_reset m c ⟨n, h⟩ h0)
    (fun n h h0 => acc_step m c ⟨n + 1, h⟩ h0)
    (by decide) t ht h'

end Cert.KernelIdeal.Acc

end
-- ==== Proof.LibColumns.lean ====
/-
  General lemmas, none about a particular kernel.

  (1) The "keepdims" column forms of two layout operations, read at an index: an [a,1] column repeated along b lanes
      (`vector.broadcast` of a per-row scalar over a row), and an [a] vector seen as an [a,1] column (`vector.shape_cast`
      after a lane reduction with keepdims).
  (2) Two re-indexings of finite sums over any commutative monoid: a sum over a·b consecutive naturals cut into a runs
      of b, and a sum over the index of a rank-one shape as the sum over its coordinate.
-/
import Idealize.ShloMosaic.Lib.Pipeline.Value
import Idealize.ShloMosaic.Lib.ValueIdx

namespace Cert.Lib

open Idealize.ShloMosaic Idealize.ShloMosaic.ValueIdx

/-- An [a,1] column repeated along b lanes reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => show (0 : ℕ) = if (1 : ℕ) = 1 then 0 else c.val; rw [if_pos rfl]

/-- An [a] vector seen as an [a,1] column reads, at (p, 0), the vector at p. -/
theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    omega)

/-- A sum over a·b consecutive naturals, cut into a runs of b. -/
theorem sum_range_mul {M : Type*} [AddCommMonoid M] (f : ℕ → M) (a b : ℕ) :
    ∑ n ∈ Finset.range (a * b), f n = ∑ t ∈ Finset.range a, ∑ r ∈ Finset.range b, f (t * b + r) := by
  induction a with
  | zero => simp
  | succ a ih => rw [Nat.succ_mul, Finset.sum_range_add, ih, Finset.sum_range_succ]

/-- A sum over a rank-one index is the sum over its coordinate. -/
theorem sum_idx1 {M : Type*} [AddCommMonoid M] {n : ℕ} (f : (⟨1, ![n]⟩ : Shape).Idx → M) :
    ∑ j : (⟨1, ![n]⟩ : Shape).Idx, f j = ∑ a : Fin n, f (ix1 a) :=
  let e : (⟨1, ![n]⟩ : Shape).Idx ≃ Fin n := ⟨fun j => j 0, ix1, fun j => (eq_ix1 j).symm, fun _ => rfl⟩
  Fintype.sum_equiv e _ _ fun j => congrArg f (eq_ix1 j)

end Cert.Lib
-- ==== Proof.LibBitBlend.lean ====
/-
  General lemmas about comparison bits read as numbers at the extended reals, none about a particular kernel.

  A bit converted unsigned (`uitofp` of an i1), or widened to a 32-bit word and converted signed (`sitofp` of an
  `extui`), is the number 0 or 1. Blending two such numbers by a third, e·c + (1 − e)·d, is the number of the bit
  selected by e; e + (1 − e)·d selects between the constant 1 and d. This is what relates a kernel that avoids a
  select on booleans by float arithmetic to a reference that selects.
-/
import Idealize.ShloMosaic.PureOps.Ideal
import Idealize.ShloMosaic.Lib.ValueIdx
import Idealize.ShloMosaic.Lib.IdealHost

noncomputable section

namespace Cert.Lib

open Idealize.ShloMosaic Idealize.ShloMosaic.ValueIdx

/-- The f32 pattern of 1.0 as the extended real it denotes. -/
abbrev one : EReal := Ideal.ofBits .f32 0x3F800000#32

/-- A bit read as an unsigned number: 0 or 1. -/
def bit (b : BitVec 1) : EReal := ((b.toNat : ℝ) : EReal)
/-- A bit widened to a 32-bit word and read as a signed number: again 0 or 1. -/
def wbit (b : BitVec 1) : EReal := (((b.setWidth 32).toInt : ℝ) : EReal)

theorem one_eq : one = ((1 : ℝ) : EReal) := by
  rw [show one = (1 : EReal) from Ideal.ofBits_one_f32]; norm_cast

theorem bit_zero : bit 0#1 = ((0 : ℝ) : EReal) := by simp [bit]
theorem bit_one : bit 1#1 = ((1 : ℝ) : EReal) := by simp [bit]
theorem wbit_zero : wbit 0#1 = ((0 : ℝ) : EReal) := by simp [wbit]
theorem wbit_one : wbit 1#1 = ((1 : ℝ) : EReal) := by
  have : ((1#1 : BitVec 1).setWidth 32).toInt = 1 := by decide
  simp [wbit, this]

/-- Blending the numbers of two bits by the number of a third is selecting between the bits: e·c + (1 − e)·d. -/
theorem blend_y (b c d : BitVec 1) : wbit b * wbit c + (one - wbit b) * wbit d = bit (Scalar.select b c d) := by
  rcases BitVec.eq_zero_or_eq_one b with h | h <;> subst h <;>
  rcases BitVec.eq_zero_or_eq_one c with h | h <;> subst h <;>
  rcases BitVec.eq_zero_or_eq_one d with h | h <;> subst h <;>
  simp only [select_one, select_zero, wbit_zero, wbit_one, bit_zero, bit_one, one_eq,
    ← EReal.coe_sub, ← EReal.coe_mul, ← EReal.coe_add] <;> norm_num

/-- The same with the constant one in place of the first bit: e + (1 − e)·d selects between 1 and the bit d. -/
theorem blend_mask (b d : BitVec 1) : wbit b + (one - wbit b) * wbit d = bit (Scalar.select b 1#1 d) := by
  rcases BitVec.eq_zero_or_eq_one b with h | h <;> subst h <;>
  rcases BitVec.eq_zero_or_eq_one d with h | h <;> subst h <;>
  simp only [select_one, select_zero, wbit_zero, wbit_one, bit_zero, bit_one, one_eq,
    ← EReal.coe_sub, ← EReal.coe_mul, ← EReal.coe_add] <;> norm_num

end Cert.Lib

end
-- ==== Proof.LossSpec.lean ====
/-
  The masked survival loss, as mathematics — no program is imported here.

  For a row n with clipped duration bin d(n) ∈ [0,127] and event flag e(n):
     y(n,k)    = [k < d]  if the event happened, [k ≤ d] if the row is censored,
     mask(n,k) = 1        if the event happened, [k ≤ d] if the row is censored,
     S(n,k)    = the logistic of the prediction, clamped into [ε, 1],
     bce(n,k)  = −( y·log S + (1 − y)·log(1 − S) ) · mask · weight(k),
     rowLoss n = ( Σₖ bce(n,k) ) / max( Σₖ mask(n,k), 1 ) · sample_weight(n).
  The loss is ( Σₙ rowLoss n ) / max( Σₙ sample_weight(n), ε ).

  Two ways of computing it are compared. One selects between the two comparison bits with the event bit and converts
  the selected bit to a number; the other converts each bit first and blends the numbers, e·[k<d] + (1−e)·[k≤d]. On
  bits these agree (LibBitBlend's `blend_y`, `blend_mask`): every number involved is 0 or 1. One sums all 131072 rows at once; the
  other sums 2048 rows at a time, 32 such blocks into each of two partial sums, and adds the two. These agree because
  addition of extended reals is commutative and associative (`sum_runs`): no cancellation, no distributivity, so no
  finiteness is needed.
-/
import Idealize.ShloMosaic.PureOps.Ideal
import Idealize.ShloMosaic.PureOps.Ideal.Laws
import Idealize.ShloMosaic.Lib.ValueIdx
import Idealize.ShloMosaic.Lib.IdealHost
import proofs.«142355_j75634374083220_2_alg».proof.Proof.LibColumns
import proofs.«142355_j75634374083220_2_alg».proof.Proof.LibBitBlend

noncomputable section

namespace Cert.SurvLoss

open Idealize.ShloMosaic Idealize.ShloMosaic.ValueIdx Cert.Lib

/-! ## Bits and their numbers -/

/-- The float pattern of ε = f32(1e-9), as the extended real it denotes (that of 1.0 is `Cert.Lib.one`). -/
abbrev eps : EReal := Ideal.ofBits .f32 0x3089705F#32

/-- The duration bin clipped into [0, 127]. -/
def dur (d : BitVec 32) : BitVec 32 := IntOp.minsi 127#32 (IntOp.maxsi 0#32 d)
/-- The event bit: the flag word is not zero. -/
def evb (e : BitVec 32) : BitVec 1 := IntOp.cmpi .ne e 0#32
/-- Column k as a word. -/
def col (k : Fin 128) : BitVec 32 := BitVec.ofNat 32 k.val
/-- [k < d] and [k ≤ d], signed, against the clipped bin. -/
def ltb (d : BitVec 32) (k : Fin 128) : BitVec 1 := IntOp.cmpi .slt (col k) (dur d)
def leb (d : BitVec 32) (k : Fin 128) : BitVec 1 := IntOp.cmpi .sle (col k) (dur d)

/-- The target y(n,k) and the mask, by selection on the event bit. -/
def yv (d e : BitVec 32) (k : Fin 128) : EReal := bit (Scalar.select (evb e) (ltb d k) (leb d k))
def mv (d e : BitVec 32) (k : Fin 128) : EReal := bit (Scalar.select (evb e) 1#1 (leb d k))

/-! ## One element, one row -/

/-- The clamped logistic, written with the quotient 1 / (1 + e⁻ˣ). -/
def clampSig (x : EReal) : EReal := min one (max eps (Ideal.div one (one + Ideal.exp (-x))))

/-- One element's weighted, masked binary cross-entropy. -/
def bce (y mk w x : EReal) : EReal :=
  -(y * Ideal.log (clampSig x) + (one - y) * Ideal.log1p (-(clampSig x))) * mk * w

/-- The same element with the logistic as one operation and each negation spelt as a difference from zero. -/
theorem bce_of_differences (y mk w x : EReal) :
    (Ideal.ofBits .f32 0x00000000#32
        - (y * Ideal.log (min one (max eps (Ideal.logistic x)))
          + (one - y) * Ideal.log1p (Ideal.ofBits .f32 0x00000000#32 - min one (max eps (Ideal.logistic x))))) * mk * w
      = bce y mk w x := by
  simp only [bce, clampSig, Ideal.logistic, Ideal.ofBits_zero_f32, zero_sub, one, Ideal.ofBits_one_f32]

/-- One row's loss from the five argument arrays. -/
def rowLoss (a0 : (⟨2, ![131072, 128]⟩ : Shape).Idx → EReal) (a1 : (⟨1, ![128]⟩ : Shape).Idx → EReal)
    (a2 : (⟨1, ![131072]⟩ : Shape).Idx → EReal) (a3 a4 : (⟨1, ![131072]⟩ : Shape).Idx → BitVec 32)
    (n : Fin 131072) : EReal :=
  Ideal.div (∑ k : Fin 128, bce (yv (a3 (ix1 n)) (a4 (ix1 n)) k) (mv (a3 (ix1 n)) (a4 (ix1 n)) k) (a1 (ix1 k)) (a0 (ix2 n k)))
    (max (∑ k : Fin 128, mv (a3 (ix1 n)) (a4 (ix1 n)) k) one) * a2 (ix1 n)

/-- One row's loss from a block of 2048 rows: predictions [2048,128], bins, flags and sample weights as [2048,1]
    columns, the bin weights as a [1,128] row. -/
def blockRow (b0 : (⟨2, ![2048, 128]⟩ : Shape).Idx → EReal) (b1 b2 : (⟨2, ![2048, 1]⟩ : Shape).Idx → BitVec 32)
    (b3 : (⟨2, ![2048, 1]⟩ : Shape).Idx → EReal) (b4 : (⟨2, ![1, 128]⟩ : Shape).Idx → EReal) (r : Fin 2048) : EReal :=
  Ideal.div (∑ k : Fin 128, bce (yv (b1 (ix2 r 0)) (b2 (ix2 r 0)) k) (mv (b1 (ix2 r 0)) (b2 (ix2 r 0)) k) (b4 (ix2 0 k)) (b0 (ix2 r k)))
    (max (∑ k : Fin 128, mv (b1 (ix2 r 0)) (b2 (ix2 r 0)) k) one) * b3 (ix2 r 0)

/-! ## Regrouping the sum over the rows -/

/-- A sum over the index of a [2,1,1] array is the sum over its first coordinate. -/
theorem sum_idx211 {M : Type*} [AddCommMonoid M] (f : (⟨3, ![2, 1, 1]⟩ : Shape).Idx → M) :
    ∑ j : (⟨3, ![2, 1, 1]⟩ : Shape).Idx, f j = ∑ o : Fin 2, f (ix3 o 0 0) := by
  have key : ∀ j : (⟨3, ![2, 1, 1]⟩ : Shape).Idx, ix3 (j 0) 0 0 = j := fun j => by
    funext a
    match a with
    | ⟨0, _⟩ => rfl
    | ⟨1, _⟩ => exact Subsingleton.elim (α := Fin 1) _ _
    | ⟨2, _⟩ => exact Subsingleton.elim (α := Fin 1) _ _
  let e : (⟨3, ![2, 1, 1]⟩ : Shape).Idx ≃ Fin 2 := ⟨fun j => j 0, fun o => ix3 o 0 0, key, fun _ => rfl⟩
  exact Fintype.sum_equiv e _ _ fun j => congrArg f (key j).symm

/-- THE REGROUPING. If M t is the sum of the rows of block t (2048 rows each, 64 blocks), then the two partial sums
    — blocks 0..31 and blocks 32..63 — add up to the sum over all 131072 rows. -/
theorem sum_runs (L : Fin 131072 → EReal) (M : ℕ → EReal)
    (hM : ∀ (t : ℕ) (h : t < 64), M t = ∑ r : Fin 2048, L ⟨t * 2048 + r.val, by have := r.isLt; omega⟩) :
    ∑ o : Fin 2, ∑ s ∈ Finset.range 32, M (32 * o.val + s) = ∑ n : Fin 131072, L n := by
  -- the rows as a function of a natural, zero past the end
  let L' : ℕ → EReal := fun n => if h : n < 131072 then L ⟨n, h⟩ else 0
  have hL : ∀ n : Fin 131072, L n = L' n.val := fun n => by simp [L', n.isLt]
  have hM' : ∀ t ∈ Finset.range 64, M t = ∑ r ∈ Finset.range 2048, L' (t * 2048 + r) := fun t ht => by
    have h64 : t < 64 := Finset.mem_range.mp ht
    rw [hM t h64, Finset.sum_range]
    exact Finset.sum_congr rfl fun r _ => by
      have := r.isLt
      simp only [L']; rw [dif_pos (by omega)]
  calc ∑ o : Fin 2, ∑ s ∈ Finset.range 32, M (32 * o.val + s)
      = ∑ o ∈ Finset.range 2, ∑ s ∈ Finset.range 32, M (o * 32 + s) := by
        rw [Finset.sum_range]; exact Finset.sum_congr rfl fun o _ => by rw [Nat.mul_comm]
    _ = ∑ t ∈ Finset.range (2 * 32), M t := (sum_range_mul M 2 32).symm
    _ = ∑ t ∈ Finset.range 64, ∑ r ∈ Finset.range 2048, L' (t * 2048 + r) := Finset.sum_congr rfl hM'
    _ = ∑ n ∈ Finset.range (64 * 2048), L' n := (sum_range_mul L' 64 2048).symm
    _ = ∑ n : Fin 131072, L n := by
        rw [show 64 * 2048 = 131072 from rfl, Finset.sum_range]
        exact Finset.sum_congr rfl fun n _ => (hL n).symm

end Cert.SurvLoss

end
-- ==== Proof.KernelPayload.lean ====
/-
  The arithmetic of the kernel's body, read at an index at the extended reals.

  The body works on one block of 2048 rows by 128 lanes. This module reads each of its pure values at an index:
  the clipped duration bin and the event flag of a row (columns [2048,1] repeated along the lanes), the comparison
  of the lane number with the bin, the blended target y and mask, the clamped logistic, and finally the one word
  it adds to the accumulator — a sum over the 2048 rows of (a sum over 128 lanes) / max(a sum over 128 lanes, 1)
  times the row's sample weight. Lane sums and the row sum are plain finite sums at the extended reals; the
  layout operations (a column repeated along lanes, a [2048] vector seen as a column, the bin weights' row
  repeated down the rows, one-word reshapes) each read one operand element.
-/
import proofs.«142355_j75634374083220_2_alg».proof.Proof.Gen.KernelIdeal.Skeleton
import proofs.«142355_j75634374083220_2_alg».proof.Proof.LossSpec
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx
open Cert.KernelIdeal Cert.KernelIdeal.Gen Cert.SurvLoss Cert.Lib

/-! ## Layout operations of the body, read at an index -/

/-- A [2048,1] column repeated along 128 lanes reads, at (r, k), the column at r. -/
theorem bcol {α : Type} (v : S2048x1.Idx → α) (r : Fin 2048) (k : Fin 128) :
    broadcastTo S2048x128 v broadcasts_S2048x1_S2048x128 (ix2 r k) = v (ix2 r 0) :=
  broadcastTo_a1_ab_apply v broadcasts_S2048x1_S2048x128 r k

/-- A [2048] vector viewed as a [2048,1] column reads, at (r, 0), the vector at r. -/
theorem colcast {α : Type} (v : S2048.Idx → α) (r : Fin 2048) :
    shapeCast S2048x1 v shapeCasts_S2048_S2048x1 (ix2 r 0) = v (ix1 r) :=
  shapeCast_a_a1_apply v shapeCasts_S2048_S2048x1 r 0

/-- The sum along the 128 lanes of a [2048,128] block, at row r. -/
theorem rowsum (v : FVec Ideal S2048x128 .f32)
    (hacc : (0x00000000#32 : BitVec 32) = 0x00000000#32) (r : Fin 2048) :
    multiReduction .add [1] S2048 v 0x00000000#32 reduces_S2048x128_S2048 (.inl rfl) hacc (ix1 r) = ∑ k : Fin 128, v (ix2 r k) :=
  (Ideal.multiReduction_add_single v _ reduces_S2048x128_S2048 (.inl rfl) hacc (ix1 r)).trans
    (Finset.sum_congr rfl fun k _ => congrArg v (funext fun a => Fin.ext (by match a with | ⟨0, _⟩ => rfl | ⟨1, _⟩ => rfl)))

/-- The sum down the 2048 rows of a [2048,1] column. -/
theorem colsum (v : FVec Ideal S2048x1 .f32)
    (hacc : (0x00000000#32 : BitVec 32) = 0x00000000#32) :
    multiReduction .add [0] S1 v 0x00000000#32 reduces_S2048x1_S1 (.inl rfl) hacc (ix1 0) = ∑ r : Fin 2048, v (ix2 r 0) :=
  (Ideal.multiReduction_add_single v _ reduces_S2048x1_S1 (.inl rfl) hacc (ix1 0)).trans
    (Finset.sum_congr rfl fun r _ => congrArg v (funext fun a => Fin.ext (by match a with | ⟨0, _⟩ => rfl | ⟨1, _⟩ => rfl)))

theorem pay2_apply (x1 : Vec Ideal S2048x1 .i32) (r : Fin 2048) : k0_pay2 x1 (ix2 r 0) = dur (x1 (ix2 r 0)) := by
  unfold k0_pay2
  show IntOp.minsi 127#32 (IntOp.maxsi 0#32 (shapeCast S2048x1 x1 shapeCasts_S2048x1_S2048x1 (ix2 r 0))) = _
  rw [shapeCast_self]; rfl

theorem pay3_apply (x2 : Vec Ideal S2048x1 .i32) (r : Fin 2048) : k0_pay3 (F := Ideal) x2 (ix2 r 0) = wbit (evb (x2 (ix2 r 0))) := by
  unfold k0_pay3
  show wbit (IntOp.cmpi .ne (shapeCast S2048x1 x2 shapeCasts_S2048x1_S2048x1 (ix2 r 0)) 0#32) = _
  rw [shapeCast_self]; rfl

theorem pay4_apply (x1 : Vec Ideal S2048x1 .i32) (r : Fin 2048) (k : Fin 128) :
    k0_pay4 (F := Ideal) x1 (ix2 r k) = wbit (leb (x1 (ix2 r 0)) k) := by
  unfold k0_pay4
  show wbit (IntOp.cmpi .sle (iota .tc S2048x128 32 [1] iota_S2048x128_d1_w32 (ix2 r k))
    (broadcastTo S2048x128 (k0_pay2 x1) broadcasts_S2048x1_S2048x128 (ix2 r k))) = _
  rw [bcol, pay2_apply, iota_single_apply]; rfl

theorem pay5_apply (x1 x2 : Vec Ideal S2048x1 .i32) (r : Fin 2048) (k : Fin 128) :
    k0_pay5 (F := Ideal) x1 x2 (ix2 r k) = yv (x1 (ix2 r 0)) (x2 (ix2 r 0)) k := by
  unfold k0_pay5
  show broadcastTo S2048x128 (k0_pay3 (F := Ideal) x2) broadcasts_S2048x1_S2048x128 (ix2 r k)
        * wbit (IntOp.cmpi .slt (iota .tc S2048x128 32 [1] iota_S2048x128_d1_w32 (ix2 r k))
            (broadcastTo S2048x128 (k0_pay2 x1) broadcasts_S2048x1_S2048x128 (ix2 r k)))
      + broadcastTo S2048x128 (subf (broadcast S2048x1 (Scalar.ofBits (F := Ideal) .f32 0x3F800000#32)) (k0_pay3 (F := Ideal) x2)) broadcasts_S2048x1_S2048x128 (ix2 r k)
        * k0_pay4 (F := Ideal) x1 (ix2 r k) = _
  rw [bcol, bcol, bcol, pay2_apply, pay4_apply, iota_single_apply]
  show k0_pay3 (F := Ideal) x2 (ix2 r 0) * _ + (one - k0_pay3 (F := Ideal) x2 (ix2 r 0)) * _ = _
  rw [pay3_apply]
  exact blend_y _ _ _

theorem pay6_apply (x1 x2 : Vec Ideal S2048x1 .i32) (r : Fin 2048) (k : Fin 128) :
    k0_pay6 (F := Ideal) x1 x2 (ix2 r k) = mv (x1 (ix2 r 0)) (x2 (ix2 r 0)) k := by
  unfold k0_pay6
  show broadcastTo S2048x128 (k0_pay3 (F := Ideal) x2) broadcasts_S2048x1_S2048x128 (ix2 r k)
      + broadcastTo S2048x128 (subf (broadcast S2048x1 (Scalar.ofBits (F := Ideal) .f32 0x3F800000#32)) (k0_pay3 (F := Ideal) x2)) broadcasts_S2048x1_S2048x128 (ix2 r k)
        * k0_pay4 (F := Ideal) x1 (ix2 r k) = _
  rw [bcol, bcol, pay4_apply]
  show k0_pay3 (F := Ideal) x2 (ix2 r 0) + (one - k0_pay3 (F := Ideal) x2 (ix2 r 0)) * _ = _
  rw [pay3_apply]
  exact blend_mask _ _

theorem pay7_apply (x0 : Vec Ideal S2048x128 .f32) (i : S2048x128.Idx) :
    k0_pay7 (F := Ideal) x0 i = max eps (Ideal.logistic (x0 i)) := rfl

theorem pay8_apply (i : S2048x128.Idx) : k0_pay8 (F := Ideal) i = one := rfl

/-- One element of the block's weighted cross-entropy as the body computes it: the logistic as one operation, the
    negations as differences from zero. -/
def bodyElt (v30 v36 v40 v41 : FVec Ideal S2048x128 .f32) (v55 : Vec Ideal S1x128 .f32) (r : Fin 2048) (k : Fin 128) : EReal :=
  (Ideal.ofBits .f32 0x00000000#32
      - (v30 (ix2 r k) * Ideal.log (min (v41 (ix2 r k)) (v40 (ix2 r k)))
        + (one - v30 (ix2 r k)) * Ideal.log1p (Ideal.ofBits .f32 0x00000000#32 - min (v41 (ix2 r k)) (v40 (ix2 r k)))))
    * v36 (ix2 r k) * v55 (ix2 0 k)

theorem pay9_apply (v30 v36 v40 v41 : FVec Ideal S2048x128 .f32) (v55 : Vec Ideal S1x128 .f32)
    (v66 : Vec Ideal S2048x1 .f32) (v72 : Vec Ideal S1x1x1 .f32) (i : S1x1x1.Idx) :
    k0_pay9 v30 v36 v40 v41 v55 v66 v72 i
      = v72 i + ∑ r : Fin 2048, Ideal.div (∑ k : Fin 128, bodyElt v30 v36 v40 v41 v55 r k)
          (max (∑ k : Fin 128, v36 (ix2 r k)) one) * v66 (ix2 r 0) := by
  unfold k0_pay9
  refine (congrFun (shapeCast_self _ _) i).trans ?_
  refine congrArg (v72 i + ·) ?_
  refine (shapeCast_apply _ _ i (ix2 (0 : Fin 1) (0 : Fin 1)) ?_).trans ?_
  · rw [Shape.rowMajor_val_two, Shape.rowMajor_val_three]
    have h0 : (i 0).val < 1 := (i 0).isLt
    have h1 : (i 1).val < 1 := (i 1).isLt
    have h2 : (i 2).val < 1 := (i 2).isLt
    show 0 * 1 + 0 = ((i 0).val * 1 + (i 1).val) * 1 + (i 2).val
    omega
  refine (shapeCast_apply _ _ (ix2 (0 : Fin 1) (0 : Fin 1)) (ix1 (0 : Fin 1)) ?_).trans ?_
  · rw [Shape.rowMajor_val_one, Shape.rowMajor_val_two]; rfl
  refine (colsum _ _).trans ?_
  refine Finset.sum_congr rfl fun r _ => ?_
  show Ideal.div (shapeCast S2048x1 (multiReduction .add [1] S2048 _ 0x00000000#32 reduces_S2048x128_S2048 _ _ : FVec Ideal S2048 .f32) shapeCasts_S2048_S2048x1 (ix2 r 0))
        (max (shapeCast S2048x1 (multiReduction .add [1] S2048 v36 0x00000000#32 reduces_S2048x128_S2048 _ _ : FVec Ideal S2048 .f32) shapeCasts_S2048_S2048x1 (ix2 r 0)) one)
      * shapeCast S2048x1 v66 shapeCasts_S2048x1_S2048x1 (ix2 r 0) = _
  rw [colcast, colcast, shapeCast_self, shapeCast_self, rowsum, rowsum]
  refine congrArg (fun s => Ideal.div s (max (∑ k : Fin 128, v36 (ix2 r k)) one) * v66 (ix2 r 0)) (Finset.sum_congr rfl fun k _ => ?_)
  show (Ideal.ofBits .f32 0x00000000#32
      - (v30 (ix2 r k) * Ideal.log (min (v41 (ix2 r k)) (v40 (ix2 r k)))
        + (one - v30 (ix2 r k)) * Ideal.log1p (Ideal.ofBits .f32 0x00000000#32 - min (v41 (ix2 r k)) (v40 (ix2 r k)))))
    * v36 (ix2 r k) * broadcastTo S2048x128 v55 broadcasts_S1x128_S2048x128 (ix2 r k) = _
  rw [broadcastTo_1b_ab_apply]
  rfl

/-- THE BODY'S ARITHMETIC. At the extended reals, what one grid point adds to the accumulator is the sum over the
    block's 2048 rows of the row loss: the row's masked, weighted cross-entropy summed along its 128 lanes, divided
    by max(Σ mask, 1), times the row's sample weight. The blended target and mask are the selected ones
    (LibBitBlend's `blend_y`, `blend_mask`); the body's logistic and its differences from zero are the quotient and the negations
    of `bce`. -/
theorem body_apply (x0 : Vec Ideal S2048x128 .f32) (x1 x2 : Vec Ideal S2048x1 .i32) (x3 : Vec Ideal S2048x1 .f32)
    (x4 : Vec Ideal S1x128 .f32) (acc : Vec Ideal S1x1x1 .f32) (i : S1x1x1.Idx) :
    k0_pay9 (k0_pay5 x1 x2) (k0_pay6 x1 x2) (k0_pay7 x0) (k0_pay8 (F := Ideal)) x4 x3 acc i
      = acc i + ∑ r : Fin 2048, blockRow x0 x1 x2 x3 x4 r := by
  rw [pay9_apply]
  refine congrArg (acc i + ·) (Finset.sum_congr rfl fun r _ => ?_)
  unfold blockRow
  simp only [pay6_apply]
  refine congrArg (fun s => Ideal.div s (max (∑ k : Fin 128, mv (x1 (ix2 r 0)) (x2 (ix2 r 0)) k) one) * x3 (ix2 r 0))
    (Finset.sum_congr rfl fun k _ => ?_)
  unfold bodyElt
  rw [pay5_apply, pay6_apply, pay7_apply, pay8_apply]
  exact bce_of_differences _ _ _ _

/-- The word the first point of a run stores is zero. -/
theorem zero_apply (i : S1x1x1.Idx) : k0_pay1 (F := Ideal) i = 0 := by
  unfold k0_pay1
  rw [shapeCast_self]
  exact Ideal.ofBits_zero_f32

end Cert.KernelIdeal.Payload

end
-- ==== Proof.KernelBlocks.lean ====
/-
  The blocks the kernel's windows hold at a grid point, read off the argument arrays.

  Point t (0 ≤ t < 64) works on rows 2048·t … 2048·t + 2047. The predictions' block is those rows of the [131072,128]
  argument; the durations, the event flags and the sample weights reach the kernel as [131072,1] columns (a reshape
  of the [131072] arguments before the call), so their blocks are the same rows of the arguments; the bin weights
  reach it as one [1,128] row (a reshape of the [128] argument), the same at every point. The run's output word of
  point t is word t / 32 of the [2,1,1] result.
-/
import proofs.«142355_j75634374083220_2_alg».proof.Proof.Gen.KernelIdeal.Frame
import Idealize.ShloMosaic.Lib.Pipeline.Value
import Idealize.ShloMosaic.Lib.ValueLayout
import Idealize.ShloMosaic.Lib.StableHlo.Run
import proofs.«142355_j75634374083220_2_alg».proof.Proof.LibColumns

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps, decided once over the 64 points: the row windows are at block t, the bin weights' at
    block 0, the output's at block t / 32. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 3) = t.val / 32 ∧ win0_5.index t (1 : Fin 3) = 0 ∧ win0_5.index t (2 : Fin 3) = 0 :=
  (by decide +kernel : ∀ t : Fin grid0.N, _)

/-- Row 2048·t + r of the arrays, for a point t and a row r of its block. -/
abbrev rowOf (t : Fin cfg0.N) (r : Fin 2048) : Fin 131072 :=
  ⟨t.val * 2048 + r.val, by have := t.isLt; have := r.isLt; have hN : cfg0.N = 64 := N_0; omega⟩

/-! ## What the region finds in the reshaped arrays -/

theorem V_durations (c : Dev nD) :
    (V m c main_v0 : S131072x1.Idx → BitVec 32) = shapeCast S131072x1 (m ((c : Thread nD τ).loc main_arg3)) shapeCasts_S131072_S131072x1 := by
  show StableHlo.after hostOps0 (fun b => m (c, b)) (Proc.devRef .tc main_v0) = _
  after_results; rfl

theorem V_events (c : Dev nD) :
    (V m c main_v1 : S131072x1.Idx → BitVec 32) = shapeCast S131072x1 (m ((c : Thread nD τ).loc main_arg4)) shapeCasts_S131072_S131072x1 := by
  show StableHlo.after hostOps0 (fun b => m (c, b)) (Proc.devRef .tc main_v1) = _
  after_results; rfl

theorem V_sample_weights (c : Dev nD) :
    (V m c main_v2 : S131072x1.Idx → F .f32) = shapeCast S131072x1 (m ((c : Thread nD τ).loc main_arg2)) shapeCasts_S131072_S131072x1 := by
  show StableHlo.after hostOps0 (fun b => m (c, b)) (Proc.devRef .tc main_v2) = _
  after_results; rfl

theorem V_bin_weights (c : Dev nD) :
    (V m c main_v3 : S1x128.Idx → F .f32) = shapeCast S1x128 (m ((c : Thread nD τ).loc main_arg1)) shapeCasts_S128_S1x128 := by
  show StableHlo.after hostOps0 (fun b => m (c, b)) (Proc.devRef .tc main_v3) = _
  after_results; rfl

/-- A [131072] vector seen as a [131072,1] column reads, at (n, 0), the vector at n. -/
theorem column_apply {α : Type} (v : S131072.Idx → α) (n : Fin 131072) :
    shapeCast S131072x1 v shapeCasts_S131072_S131072x1 (ix2 n 0) = v (ix1 n) :=
  Cert.Lib.shapeCast_a_a1_apply v shapeCasts_S131072_S131072x1 n 0

/-! ## The blocks -/

theorem preds_block (c : Dev nD) (t : Fin cfg0.N) (r : Fin 2048) (k : Fin 128) :
    (iblk m c 0 t : Vec F S2048x128 .f32) (ix2 r k) = m ((c : Thread nD τ).loc main_arg0) (ix2 (rowOf t r) k) := by
  unfold iblk
  rw [View.read_apply]
  show V m c main_arg0 _ = _
  rw [V_main_arg0]
  refine congrArg _ (funext fun a => Fin.ext ?_)
  obtain ⟨e0, e1, -⟩ := idx_facts t
  match a with
  | ⟨0, _⟩ => show win0_0.index t (0 : Fin 2) * 2048 + 1 * r.val = t.val * 2048 + r.val; rw [e0]; omega
  | ⟨1, _⟩ => show win0_0.index t (1 : Fin 2) * 128 + 1 * k.val = k.val; rw [e1]; omega

/-- The durations' block: rows 2048·t … of the durations. -/
theorem durations_block (c : Dev nD) (t : Fin cfg0.N) (r : Fin 2048) :
    (iblk m c 1 t : Vec F S2048x1 .i32) (ix2 r 0) = m ((c : Thread nD τ).loc main_arg3) (ix1 (rowOf t r)) := by
  unfold iblk
  rw [View.read_apply]
  show V m c main_v0 _ = _
  rw [V_durations]
  obtain ⟨-, -, e10, e11, e20, e21, e30, e31, -⟩ := idx_facts t
  refine (congrArg _ (?_ : _ = ix2 (rowOf t r) (0 : Fin 1))).trans (column_apply _ _)
  refine funext fun a => Fin.ext ?_
  match a with
  | ⟨0, _⟩ => show win0_1.index t (0 : Fin 2) * 2048 + 1 * r.val = t.val * 2048 + r.val; rw [e10]; omega
  | ⟨1, _⟩ => show win0_1.index t (1 : Fin 2) * 1 + 1 * 0 = 0; rw [e11]

/-- The event flags' block. -/
theorem events_block (c : Dev nD) (t : Fin cfg0.N) (r : Fin 2048) :
    (iblk m c 2 t : Vec F S2048x1 .i32) (ix2 r 0) = m ((c : Thread nD τ).loc main_arg4) (ix1 (rowOf t r)) := by
  unfold iblk
  rw [View.read_apply]
  show V m c main_v1 _ = _
  rw [V_events]
  obtain ⟨-, -, e10, e11, e20, e21, e30, e31, -⟩ := idx_facts t
  refine (congrArg _ (?_ : _ = ix2 (rowOf t r) (0 : Fin 1))).trans (column_apply _ _)
  refine funext fun a => Fin.ext ?_
  match a with
  | ⟨0, _⟩ => show win0_2.index t (0 : Fin 2) * 2048 + 1 * r.val = t.val * 2048 + r.val; rw [e20]; omega
  | ⟨1, _⟩ => show win0_2.index t (1 : Fin 2) * 1 + 1 * 0 = 0; rw [e21]

/-- The sample weights' block. -/
theorem sample_weights_block (c : Dev nD) (t : Fin cfg0.N) (r : Fin 2048) :
    (iblk m c 3 t : Vec F S2048x1 .f32) (ix2 r 0) = m ((c : Thread nD τ).loc main_arg2) (ix1 (rowOf t r)) := by
  unfold iblk
  rw [View.read_apply]
  show V m c main_v2 _ = _
  rw [V_sample_weights]
  obtain ⟨-, -, e10, e11, e20, e21, e30, e31, -⟩ := idx_facts t
  refine (congrArg _ (?_ : _ = ix2 (rowOf t r) (0 : Fin 1))).trans (column_apply _ _)
  refine funext fun a => Fin.ext ?_
  match a with
  | ⟨0, _⟩ => show win0_3.index t (0 : Fin 2) * 2048 + 1 * r.val = t.val * 2048 + r.val; rw [e30]; omega
  | ⟨1, _⟩ => show win0_3.index t (1 : Fin 2) * 1 + 1 * 0 = 0; rw [e31]

/-- The bin weights' block: the whole [128] argument as a row, at every point. -/
theorem bin_weights_block (c : Dev nD) (t : Fin cfg0.N) (k : Fin 128) :
    (iblk m c 4 t : Vec F S1x128 .f32) (ix2 0 k) = m ((c : Thread nD τ).loc main_arg1) (ix1 k) := by
  unfold iblk
  rw [View.read_apply]
  show V m c main_v3 _ = _
  rw [V_bin_weights]
  obtain ⟨-, -, -, -, -, -, -, -, e40, e41, -⟩ := idx_facts t
  refine (congrArg _ (?_ : _ = ix2 (0 : Fin 1) k)).trans (shapeCast_a_1a_apply _ _ _ _)
  refine funext fun a => Fin.ext ?_
  match a with
  | ⟨0, _⟩ => show win0_4.index t (0 : Fin 2) * 1 + 1 * 0 = 0; rw [e40]
  | ⟨1, _⟩ => show win0_4.index t (1 : Fin 2) * 128 + 1 * k.val = k.val; rw [e41]; omega

end Cert.KernelIdeal.Blocks

end
-- ==== Proof.KernelValue.lean ====
/-
  The kernel's program, read as a value at the extended reals.

  After point t the accumulator holds the sum of the block sums of t's run up to t (the fold of KernelFold, with
  the body's arithmetic of KernelPayload and the blocks of KernelBlocks: block t's rows are rows 2048·t … of the
  arguments). The last point of run o writes that sum — over blocks 32·o … 32·o+31 — into word o of the [2,1,1]
  result, and those two write-backs cover the result. The host lines after the call add the two words and divide
  by max(Σ sample_weight, ε). Adding the two runs' sums is adding all 131072 row losses (`sum_runs`).
-/
import proofs.«142355_j75634374083220_2_alg».proof.Proof.KernelFold
import proofs.«142355_j75634374083220_2_alg».proof.Proof.KernelPayload
import proofs.«142355_j75634374083220_2_alg».proof.Proof.KernelBlocks
import proofs.«142355_j75634374083220_2_alg».proof.Proof.LossSpec
import Idealize.ShloMosaic.Lib.Pipeline.Value
import Idealize.ShloMosaic.Lib.StableHlo.Run
import Idealize.ShloMosaic.Lib.IdealHost

set_option maxRecDepth 16384

noncomputable section

open Idealize.ShloMosaic Idealize.ShloMosaic.TcCoe Idealize.SL.Sem Idealize.ShloMosaic.ValueIdx
open Idealize.ShloMosaic.Pipeline (Dat)

namespace Cert.SurvLoss

/-- A block's row is the arrays' row when the block's entries are the arrays' entries. -/
theorem blockRow_eq (b0 : (⟨2, ![2048, 128]⟩ : Shape).Idx → EReal) (b1 b2 : (⟨2, ![2048, 1]⟩ : Shape).Idx → BitVec 32)
    (b3 : (⟨2, ![2048, 1]⟩ : Shape).Idx → EReal) (b4 : (⟨2, ![1, 128]⟩ : Shape).Idx → EReal)
    (a0 : (⟨2, ![131072, 128]⟩ : Shape).Idx → EReal) (a1 : (⟨1, ![128]⟩ : Shape).Idx → EReal)
    (a2 : (⟨1, ![131072]⟩ : Shape).Idx → EReal) (a3 a4 : (⟨1, ![131072]⟩ : Shape).Idx → BitVec 32)
    (r : Fin 2048) (n : Fin 131072)
    (h0 : ∀ k : Fin 128, b0 (ix2 r k) = a0 (ix2 n k)) (h1 : b1 (ix2 r 0) = a3 (ix1 n)) (h2 : b2 (ix2 r 0) = a4 (ix1 n))
    (h3 : b3 (ix2 r 0) = a2 (ix1 n)) (h4 : ∀ k : Fin 128, b4 (ix2 0 k) = a1 (ix1 k)) :
    blockRow b0 b1 b2 b3 b4 r = rowLoss a0 a1 a2 a3 a4 n := by
  unfold blockRow rowLoss
  simp only [h0, h1, h2, h3, h4]

end Cert.SurvLoss

namespace Cert.KernelIdeal.LossValue

open Cert.KernelIdeal Cert.KernelIdeal.Gen Cert.KernelIdeal.Acc Cert.KernelIdeal.Blocks Cert.KernelIdeal.Payload Cert.SurvLoss Cert.Lib

variable (m : (ℓ : Loc nD τ sig) → Buf (Elt Ideal) ℓ) (ρ : Dev nD → PrngReg)

/-- Row n's loss, of core c's argument arrays as launched. -/
abbrev rowL (c : Dev nD) (n : Fin 131072) : EReal :=
  rowLoss (m ((c : Thread nD τ).loc main_arg0)) (m ((c : Thread nD τ).loc main_arg1)) (m ((c : Thread nD τ).loc main_arg2))
    (m ((c : Thread nD τ).loc main_arg3)) (m ((c : Thread nD τ).loc main_arg4)) n

/-- The sum of the row losses of block t (zero past the grid). -/
def blockSum (c : Dev nD) (t : ℕ) : EReal :=
  if h : t < cfg0.N then ∑ r : Fin 2048, rowL m c (rowOf ⟨t, h⟩ r) else 0

/-- One point adds its block's sum to the accumulator. -/
theorem stepAt_apply (c : Dev nD) (t : Fin cfg0.N) (acc : Vec Ideal S1x1x1 .f32) (i : S1x1x1.Idx) :
    stepAt m c t acc i = acc i + blockSum m c t.val := by
  refine (body_apply (iblk m c 0 t) (iblk m c 1 t) (iblk m c 2 t) (iblk m c 3 t) (iblk m c 4 t) acc i).trans ?_
  refine congrArg (acc i + ·) ?_
  unfold blockSum
  rw [dif_pos t.isLt]
  refine Finset.sum_congr rfl fun r _ => ?_
  exact blockRow_eq _ _ _ _ _ _ _ _ _ _ r (rowOf t r) (fun k => preds_block m c t r k) (durations_block m c t r)
    (events_block m c t r) (sample_weights_block m c t r) (fun k => bin_weights_block m c t k)

/-- After point t the accumulator is the sum of the block sums of t's run, up to t. -/
theorem acc_value (c : Dev nD) (t : Fin cfg0.N) (i : S1x1x1.Idx) :
    (outsAt0 m c t.val t.isLt).2 i = ∑ s ∈ Finset.range (t.val % 32 + 1), blockSum m c (32 * (t.val / 32) + s) := by
  have hN : cfg0.N = 64 := N_0
  have h' : 32 * (t.val / 32) + t.val % 32 < cfg0.N := by rw [Nat.div_add_mod]; exact t.isLt
  rw [acc_fold m c t.val t.isLt h']
  refine (Pipeline.accAt_add_apply _ _ (fun _ => (0 : EReal)) (fun n _ => blockSum m c n) (32 * (t.val / 32)) 31
    (fun h i => ?_) (fun n h acc i _ _ => ?_) (t.val % 32) (by omega) h' i).trans (zero_add _)
  · exact (stepAt_apply m c ⟨_, h⟩ _ i).trans (congrArg (· + blockSum m c _) (zero_apply i))
  · exact stepAt_apply m c ⟨n, h⟩ acc i

/-- The result array: word o is the sum of the block sums of run o. -/
def partials (c : Dev nD) : S2x1x1.Idx → EReal :=
  fun idx => ∑ s ∈ Finset.range 32, blockSum m c (32 * (idx 0).val + s)

/-- What a write-back writes is its block of `partials`: the last point of run o writes word o. -/
theorem flushed_eq (c : Dev nD) (t : Fin cfg0.N) (hf : (cfg0.win 5).flush t = true) :
    (dats m 0 c).flushed 5 t = ((cfg0.win 5).blk t).view.read (Elt Ideal) (partials m c) := by
  have h31 : t.val % 32 = 31 := (flush0_5 t).mp hf
  show (cfg0.win 5).cut (grid0.coords t) ((dats m 0 c).after 5 t) = _
  rw [after0_5, out_eq_acc m c t h31]
  funext y
  rw [View.read_apply]
  refine (acc_value m c t y).trans ?_
  obtain ⟨-, -, -, -, -, -, -, -, -, -, e50, -⟩ := idx_facts t
  have hy : (y 0).val < 1 := (y 0).isLt
  have e : ((((cfg0.win 5).blk t).view.emb y) 0).val = t.val / 32 := by
    show win0_5.index t (0 : Fin 3) * 1 + 1 * (y 0).val = t.val / 32
    rw [e50]; omega
  show _ = ∑ s ∈ Finset.range 32, blockSum m c (32 * ((((cfg0.win 5).blk t).view.emb y) 0).val + s)
  rw [e, h31]

/-- The two write-backs cover the result. -/
theorem covered (c : Dev nD) (i : S2x1x1.Idx) :
    ∃ t : Fin cfg0.N, (cfg0.win 5).flush t = true ∧ i ∈ ((cfg0.win 5).blk t).view.set := by
  have hN : cfg0.N = 64 := N_0
  have hi0 : (i 0).val < 2 := (i 0).isLt
  have hi1 : (i 1).val < 1 := (i 1).isLt
  have hi2 : (i 2).val < 1 := (i 2).isLt
  have hlt : 32 * (i 0).val + 31 < cfg0.N := by omega
  refine ⟨⟨32 * (i 0).val + 31, hlt⟩, (flush0_5 _).mpr (by show (32 * (i 0).val + 31) % 32 = 31; omega), ?_⟩
  obtain ⟨-, -, -, -, -, -, -, -, -, -, e50, e51, e52⟩ := idx_facts ⟨32 * (i 0).val + 31, hlt⟩
  have e50' : win0_5.index ⟨32 * (i 0).val + 31, hlt⟩ (0 : Fin 3) = (i 0).val := by rw [e50]; show (32 * (i 0).val + 31) / 32 = _; omega
  show i ∈ ((View.whole main_v4).slice (win0_5.rect ⟨32 * (i 0).val + 31, hlt⟩)).set
  rw [View.set_slice_whole, Rect.mem_set_unit]
  intro a
  match a with
  | ⟨0, _⟩ => show win0_5.index _ (0 : Fin 3) * 1 ≤ (i 0).val ∧ (i 0).val < win0_5.index _ (0 : Fin 3) * 1 + 1; rw [e50']; omega
  | ⟨1, _⟩ => show win0_5.index _ (1 : Fin 3) * 1 ≤ (i 1).val ∧ (i 1).val < win0_5.index _ (1 : Fin 3) * 1 + 1; rw [e51]; omega
  | ⟨2, _⟩ => show win0_5.index _ (2 : Fin 3) * 1 ≤ (i 2).val ∧ (i 2).val < win0_5.index _ (2 : Fin 3) * 1 + 1; rw [e52]; omega

/-- So the result array ends holding the two runs' sums. -/
theorem final (c : Dev nD) : (dats m 0 c).arrAt 5 cfg0.N = partials m c :=
  (dats m 0 c).arrAt_eq_of_cover 5 (partials m c) (flushed_eq m c) (covered c)

end Cert.KernelIdeal.LossValue

end
-- ==== Proof.LossTail.lean ====
/-
  The last host lines, shared by both programs: the loss is the numerator divided by max(Σ sample_weight, ε).
  Both programs compute the denominator by the same three operations of the same argument, so it is carried as one
  term and never opened.
-/
import proofs.«142355_j75634374083220_2_alg».proof.Proof.LossSpec

noncomputable section

namespace Cert.SurvLoss

open Idealize.ShloMosaic

/-- The loss from the summed row losses and the sample weights. -/
def lossOf (h : (⟨1, ![131072]⟩ : Shape).ReducesTo [0] ⟨0, ![]⟩) (hu : 0 < (⟨0, ![]⟩ : Shape).numel) (num : EReal)
    (sw : (⟨1, ![131072]⟩ : Shape).Idx → EReal) : (⟨0, ![]⟩ : Shape).Idx → EReal :=
  Host.divf (F := Ideal) (φ := .f32) (fun _ => num)
    (maximumf (F := Ideal) (φ := .f32)
      (Host.reduceAdd (F := Ideal) (φ := .f32) sw (constant (F := Ideal) ⟨0, ![]⟩ .f32 0x00000000#32) h hu)
      (constant (F := Ideal) ⟨0, ![]⟩ .f32 0x3089705F#32))

end Cert.SurvLoss

end
-- ==== Proof.KernelRun.lean ====
/-
  The kernel's run, read: its result is the loss of LossSpec, of the argument arrays as launched.
-/
import proofs.«142355_j75634374083220_2_alg».proof.Proof.KernelValue
import proofs.«142355_j75634374083220_2_alg».proof.Proof.LossTail

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LossValue

open Cert.KernelIdeal Cert.KernelIdeal.Gen Cert.KernelIdeal.Acc Cert.KernelIdeal.Blocks Cert.SurvLoss Cert.Lib

variable (m : (ℓ : Loc nD τ sig) → Buf (Elt Ideal) ℓ) (ρ : Dev nD → PrngReg)

/-- The two runs' sums add up to the sum of all the row losses. -/
theorem partials_sum (c : Dev nD) (i : S_.Idx) :
    Host.reduceAdd (F := Ideal) (φ := .f32) (partials m c) (constant (F := Ideal) S_ .f32 0x00000000#32) reducesTo_S2x1x1_S_d0_1_2 h_S_ i
      = ∑ n : Fin 131072, rowL m c n := by
  rw [hostReduceAdd_apply, Ideal.hostReduceAdd_total reducesTo_S2x1x1_S_d0_1_2 (fun b => b.elim0)]
  show Ideal.ofBits .f32 0x00000000#32 + _ = _
  rw [Ideal.ofBits_zero_f32, zero_add, sum_idx211]
  have hN : cfg0.N = 64 := N_0
  refine sum_runs (rowL m c) (blockSum m c) fun t h => ?_
  unfold blockSum
  rw [dif_pos (by omega)]

/-- The value the host lines after the call leave in the result. -/
theorem tail_value (c : Dev nD) :
    Pipeline.afterTail₀ cfgs (dats m) 0 (V0 m) [hostOps1] c main_v8
      = lossOf reducesTo_S131072_S_d0 h_S_ (∑ n : Fin 131072, rowL m c n) (m ((c : Thread nD τ).loc main_arg2)) := by
  unfold Pipeline.afterTail₀
  show StableHlo.after hostOps1 _ (Proc.devRef .tc main_v8) = _
  after_results
  have e4 : Pipeline.withArrays (cfgs 0).spec c (V0 m c) (fun w => (dats m 0 c).arrAt w (cfgs 0).N) (Proc.devRef .tc main_v4)
      = partials m c :=
    (Pipeline.withArrays_arr spec0 launch0.win.arr_inj c _ _ 5).trans (final m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e4, e2]
  have hnum : Host.reduceAdd (F := Ideal) (φ := .f32) (partials m c) (constant (F := Ideal) S_ .f32 0x00000000#32) reducesTo_S2x1x1_S_d0_1_2 h_S_
      = fun _ => ∑ n : Fin 131072, rowL m c n := funext fun i => partials_sum m c i
  rw [hnum]
  rfl

/-- THE KERNEL'S RUN, READ: every weakly fair execution terminates with the result at the loss of the argument arrays
    as launched, and the arguments unchanged. -/
theorem run : θ_run defs (onTc (τ := τ) (main (F := Ideal))) ⟨m, fun _ => 0, ρ⟩ fun r => ∀ c : Dev nD,
      r.2.mem ((c : Thread nD τ).loc main_v8)
        = lossOf reducesTo_S131072_S_d0 h_S_ (∑ n : Fin 131072, rowL m c n) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v8 (Pipeline.mem_restRefs_of main_v8 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.LossValue

end
-- ==== Proof.ReferenceValue.lean ====
/-
  The reference, read at an index: its result is the loss of LossSpec.

  The reference program is straight-line jnp: clip the bins, compare the lane number with the bin both ways, select
  by the event flag, convert to numbers, take the clamped logistic 1/(1+e⁻ˣ), the two logarithms, the masked
  weighted cross-entropy, the two lane sums, the quotient, the product with the sample weight, the sum over all
  rows, and the final quotient by max(Σ sample_weight, ε). Each stage at an index reads its operands at an index
  (the generated read-at-an-index lemmas); composed, row n's value is `rowLoss` of the argument arrays at n.
-/
import proofs.«142355_j75634374083220_2_alg».proof.Proof.Gen.ReferenceIdeal.Read
import proofs.«142355_j75634374083220_2_alg».proof.Proof.LossSpec

noncomputable section

namespace Cert.ReferenceIdeal.RefValue

open Idealize.ShloMosaic Idealize.ShloMosaic.ValueIdx
open Cert.ReferenceIdeal Cert.ReferenceIdeal.Gen Cert.ReferenceIdeal.Read Cert.SurvLoss Cert.Lib

variable (x0 : (⟨S131072x128, .f32⟩ : BufTy).Contents (Elt Ideal)) (x1 : (⟨S128, .f32⟩ : BufTy).Contents (Elt Ideal))
  (x2 : (⟨S131072, .f32⟩ : BufTy).Contents (Elt Ideal)) (x3 x4 : (⟨S131072, .i32⟩ : BufTy).Contents (Elt Ideal))

/-- The clipped bin of row n. -/
theorem dur_apply (n : Fin 131072) : val_main_v0 (F := Ideal) x3 (ix1 n) = dur (x3 (ix1 n)) := by
  rw [val_main_v0_apply, val_main_call0_v4_apply, val_main_call0_v3_apply, val_main_c_0_apply, val_main_call0_v2_apply,
    val_main_call0_v1_apply, val_main_call0_v0_apply, val_main_c_apply]
  rfl

/-- … repeated along the lanes. -/
theorem durcol_apply (n : Fin 131072) (k : Fin 128) : val_main_v8 (F := Ideal) x3 (ix2 n k) = dur (x3 (ix1 n)) := by
  rw [val_main_v8_apply, val_main_v1_apply]
  have e : idx_main_v1 (idx_main_v8 (ix2 n k)) = ix1 n := funext fun a => Fin.ext (by match a with | ⟨0, _⟩ => rfl)
  rw [e, dur_apply]

/-- The lane number, repeated down the rows. -/
theorem col_apply (n : Fin 131072) (k : Fin 128) : val_main_v7 (F := Ideal) (ix2 n k) = col k := by
  rw [val_main_v7_apply, val_main_v6_apply, val_main_v5_apply]
  rfl

/-- The event bit of row n, repeated along the lanes. -/
theorem ev_apply (n : Fin 131072) (k : Fin 128) : val_main_call1_v0 (F := Ideal) x4 (ix2 n k) = evb (x4 (ix1 n)) := by
  rw [val_main_call1_v0_apply, val_main_v4_apply, val_main_v3_apply, val_main_v2_apply, val_main_c_1_apply]
  have e : idx_main_v4 (idx_main_call1_v0 (ix2 n k)) = ix1 n := funext fun a => Fin.ext (by match a with | ⟨0, _⟩ => rfl)
  rw [e]
  rfl

/-- The target y(n,k). -/
theorem y_apply (n : Fin 131072) (k : Fin 128) : val_main_v14 (F := Ideal) x3 x4 (ix2 n k) = yv (x3 (ix1 n)) (x4 (ix1 n)) k := by
  rw [val_main_v14_apply, val_main_v13_apply, ev_apply, val_main_v9_apply, val_main_v12_apply]
  rw [show val_main_v10 (F := Ideal) = val_main_v7 (F := Ideal) from rfl,
    show val_main_v11 (F := Ideal) x3 = val_main_v8 (F := Ideal) x3 from rfl, col_apply, durcol_apply]
  rfl

/-- The mask. -/
theorem mask_apply (n : Fin 131072) (k : Fin 128) : val_main_v19 (F := Ideal) x3 x4 (ix2 n k) = mv (x3 (ix1 n)) (x4 (ix1 n)) k := by
  rw [val_main_v19_apply, val_main_v18_apply, show val_main_call2_v0 (F := Ideal) x4 = val_main_call1_v0 (F := Ideal) x4 from rfl,
    ev_apply, val_main_call2_v1_apply, val_main_c_2_apply, val_main_v17_apply]
  rw [show val_main_v15 (F := Ideal) = val_main_v7 (F := Ideal) from rfl,
    show val_main_v16 (F := Ideal) x3 = val_main_v8 (F := Ideal) x3 from rfl, col_apply, durcol_apply]
  rfl

/-- The clamped logistic. -/
theorem sig_apply (i : S131072x128.Idx) : val_main_v26 (F := Ideal) x0 i = clampSig (x0 i) := by
  rw [val_main_v26_apply, val_main_call3_v4_apply, val_main_call3_v3_apply, val_main_cst_5_apply, val_main_call3_v2_apply,
    val_main_call3_v1_apply, val_main_call3_v0_apply, val_main_cst_4_apply, val_main_v25_apply, val_main_v24_apply,
    val_main_cst_3_apply, val_main_v23_apply, val_main_v22_apply, val_main_cst_apply, val_main_v21_apply, val_main_v20_apply]
  rfl

/-- One element of the masked, weighted cross-entropy. -/
theorem elt_apply (n : Fin 131072) (k : Fin 128) :
    val_main_v39 (F := Ideal) x0 x1 x3 x4 (ix2 n k)
      = bce (yv (x3 (ix1 n)) (x4 (ix1 n)) k) (mv (x3 (ix1 n)) (x4 (ix1 n)) k) (x1 (ix1 k)) (x0 (ix2 n k)) := by
  rw [val_main_v39_apply, val_main_v36_apply, val_main_v35_apply, val_main_v34_apply, val_main_v28_apply, val_main_v27_apply,
    val_main_v33_apply, val_main_v30_apply, val_main_v29_apply, val_main_cst_6_apply, val_main_v32_apply, val_main_v31_apply,
    val_main_v38_apply, val_main_v37_apply, sig_apply, y_apply, mask_apply]
  have e : idx_main_v37 (idx_main_v38 (ix2 n k)) = ix1 k := funext fun a => Fin.ext (by match a with | ⟨0, _⟩ => rfl)
  rw [e]
  rfl

/-- Row n's loss. -/
theorem row_apply (n : Fin 131072) :
    val_main_v45 (F := Ideal) x0 x1 x2 x3 x4 (ix1 n) = rowLoss x0 x1 x2 x3 x4 n := by
  rw [val_main_v45_apply, val_main_v44_apply, val_main_v40_apply, val_main_v43_apply, val_main_v41_apply, val_main_v42_apply,
    val_main_cst_9_apply, val_main_cst_7_apply, val_main_cst_8_apply]
  have e40 : ∀ k : Fin 128, idx_main_v40 (ix1 n) k = ix2 n k := fun k =>
    funext fun a => Fin.ext (by match a with | ⟨0, _⟩ => rfl | ⟨1, _⟩ => rfl)
  have e41 : ∀ k : Fin 128, idx_main_v41 (ix1 n) k = ix2 n k := fun k =>
    funext fun a => Fin.ext (by match a with | ⟨0, _⟩ => rfl | ⟨1, _⟩ => rfl)
  simp only [e40, e41, elt_apply, mask_apply]
  show Ideal.div (Ideal.ofBits .f32 0x00000000#32 + _) (max (Ideal.ofBits .f32 0x00000000#32 + _) one) * _ = _
  rw [Ideal.ofBits_zero_f32, zero_add, zero_add]
  rfl

/-- The sum over all rows: the reference's numerator, at its one index. -/
theorem numerator_apply (i : S_.Idx) :
    val_main_v46 (F := Ideal) x0 x1 x2 x3 x4 i = ∑ n : Fin 131072, rowLoss x0 x1 x2 x3 x4 n := by
  rw [val_main_v46_apply, val_main_cst_10_apply]
  show Ideal.ofBits .f32 0x00000000#32 + _ = _
  rw [Ideal.ofBits_zero_f32, zero_add, sum_idx1]
  exact Finset.sum_congr rfl fun n _ => row_apply x0 x1 x2 x3 x4 n

end Cert.ReferenceIdeal.RefValue

end
-- ==== Proof.ReferenceResult.lean ====
/-
  The reference's result is the loss of LossSpec: its numerator is the sum of the row losses (ReferenceValue), and
  its last three host lines are the shared denominator and quotient.
-/
import proofs.«142355_j75634374083220_2_alg».proof.Proof.ReferenceValue
import proofs.«142355_j75634374083220_2_alg».proof.Proof.LossTail

noncomputable section

namespace Cert.ReferenceIdeal.RefValue

open Idealize.ShloMosaic Idealize.ShloMosaic.ValueIdx
open Cert.ReferenceIdeal Cert.ReferenceIdeal.Gen Cert.ReferenceIdeal.Read Cert.SurvLoss Cert.Lib

theorem result_eq (x0 : (⟨S131072x128, .f32⟩ : BufTy).Contents (Elt Ideal)) (x1 : (⟨S128, .f32⟩ : BufTy).Contents (Elt Ideal))
    (x2 : (⟨S131072, .f32⟩ : BufTy).Contents (Elt Ideal)) (x3 x4 : (⟨S131072, .i32⟩ : BufTy).Contents (Elt Ideal)) :
    val_main_v49 (F := Ideal) x0 x1 x2 x3 x4
      = lossOf reducesTo_S131072_S_d0 h_S_ (∑ n : Fin 131072, rowLoss x0 x1 x2 x3 x4 n) x2 := by
  have hnum : val_main_v46 (F := Ideal) x0 x1 x2 x3 x4 = fun _ => ∑ n : Fin 131072, rowLoss x0 x1 x2 x3 x4 n :=
    funext fun i => numerator_apply x0 x1 x2 x3 x4 i
  unfold val_main_v49
  rw [hnum]
  rfl

end Cert.ReferenceIdeal.RefValue

end
-- ==== Proof.lean ====
/-
  The masked binary-cross-entropy survival loss: a streaming Pallas kernel against its jnp reference, equal at the
  extended reals.

  Both programs compute
      loss = ( Σₙ rowLoss n ) / max( Σₙ sample_weight n, ε ),
      rowLoss n = ( Σₖ bce(n,k) ) / max( Σₖ mask(n,k), 1 ) · sample_weight n          (LossSpec).
  The reference does it in one pass of whole-array operations. The kernel streams 64 blocks of 2048 rows through a
  [2,32] grid: per block it forms the same per-row quotients, sums them down the rows, and adds the sum into a
  one-word accumulator that is reset at the first block of each run of 32 and written out at the last; the host then
  adds the two words and divides. Two things differ and are reconciled: the kernel blends numbers, e·[k<d] +
  (1−e)·[k≤d], where the reference selects between bits (equal on bits: LibBitBlend `blend_y`, `blend_mask`), and the
  kernel groups the sum over rows by blocks and runs (equal because + on the extended reals is commutative and
  associative: LossSpec `sum_runs`). Neither needs a finite input, so the precondition is never opened. The clamped
  logistic, the logarithms and the quotients are the same functions on both sides.

  The modules: LibColumns and LibBitBlend (general lemmas: column layouts and sums re-indexed; bits as numbers),
  LossSpec (the mathematics), LossTail (the shared last host lines); KernelSteps, KernelFold (the three
  control cases of the body as one step, and the accumulator as a fold over a run), KernelPayload (the body's
  arithmetic at an index), KernelBlocks (a point's blocks are rows of the arguments), KernelValue and KernelRun (the
  result array and the run); ReferenceValue and ReferenceResult (the reference, stage by stage). The three frames are
  the generated ones; the ideal pass rewrote nothing, so `preserves` is trivial.
-/
import proofs.«142355_j75634374083220_2_alg».proof.Defs
import proofs.«142355_j75634374083220_2_alg».proof.Proof.Gen.Kernel
import proofs.«142355_j75634374083220_2_alg».proof.Proof.Gen.Kernel.Frame
import proofs.«142355_j75634374083220_2_alg».proof.Proof.Gen.KernelIdeal
import proofs.«142355_j75634374083220_2_alg».proof.Proof.Gen.KernelIdeal.Frame
import proofs.«142355_j75634374083220_2_alg».proof.Proof.Gen.ReferenceIdeal
import proofs.«142355_j75634374083220_2_alg».proof.Proof.Gen.ReferenceIdeal.Run
import proofs.«142355_j75634374083220_2_alg».proof.Proof.Gen.ReferenceIdeal.Read
import proofs.«142355_j75634374083220_2_alg».proof.Proof.Gen.Pre_finite_inputs
import proofs.«142355_j75634374083220_2_alg».proof.Proof.KernelRun
import proofs.«142355_j75634374083220_2_alg».proof.Proof.ReferenceResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the loss of the (agreeing) argument arrays. -/
theorem algebraic : Cert.algebraic_KernelIdeal_ReferenceIdeal := by
  intro m ρ m' ρ' _ hagree
  refine ⟨fun c => Cert.SurvLoss.lossOf Cert.KernelIdeal.Facts₀.reducesTo_S131072_S_d0 Cert.KernelIdeal.Facts₀.h_S_
      (∑ n : Fin 131072, Cert.KernelIdeal.LossValue.rowL m c n)
      (m ((c.tc : Thread Cert.KernelIdeal.nD Cert.KernelIdeal.τ).loc Cert.KernelIdeal.main_arg2)),
    Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
